-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x2048 : Shape := ⟨3, ![8, 2048, 2048]⟩
abbrev S128x128 : Shape := ⟨2, ![128, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8x2048x128 .f32) (main_arg1 : FVec F S8x2048x2048 .f32) (main_arg2 : FVec F S128x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S8x2048x128 : Shape := ⟨3, ![8, 2048, 128]⟩
abbrev S8x2048x2048 : Shape := ⟨3, ![8, 2048, 2048]⟩
abbrev S128x128 : Shape := ⟨2, ![128, 128]⟩
abbrev S1x2048x128 : Shape := ⟨3, ![1, 2048, 128]⟩
abbrev S1x512x2048 : Shape := ⟨3, ![1, 512, 2048]⟩
abbrev S1x512x128 : Shape := ⟨3, ![1, 512, 128]⟩
abbrev S2048x128 : Shape := ⟨2, ![2048, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S128x128, .f32⟩
  | .hbm, ⟨3, _⟩ => ⟨S8x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S128x128, .f32⟩
  | .local _ .vmem, ⟨3, _⟩ => ⟨S1x512x2048, .f32⟩
  | .local _ .vmem, ⟨4, _⟩ => ⟨S1x512x2048, .f32⟩
  | .local _ .vmem, ⟨5, _⟩ => ⟨S1x512x128, .f32⟩
  | .local _ .vmem, ⟨6, _⟩ => ⟨S1x512x128, .f32⟩
  | .local _ .vmem, ⟨7, _⟩ => ⟨S2048x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S128x128_S128x128_0_0 : ∀ a, (![0, 0] : Fin 2 → Nat) a + S128x128.size a ≤ S128x128.size a
  h_S128x128 : 0 < S128x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  h_S512x128 : 0 < S512x128.numel
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  shapeCasts_S512x128_S1x512x128 : S512x128.ShapeCasts S1x512x128
  inb_S1x512x128_S1x512x128_0_0_0 : ∀ a, (![0, 0, 0] : Fin 3 → Nat) a + S1x512x128.size a ≤ S1x512x128.size a
  h_S1x512x128 : 0 < S1x512x128.numel
  dot_S2048x128_S128x128_S2048x128_1_0_0_1_n_n_wf : DotDims.WF S2048x128 S128x128 S2048x128 [1] [0] [0] [1] [] []
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x128.size a ≤ S2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x2048x2048.size a
  hwx0_2 : ∀ i : grid0.Coords, EltTy.bits .f32 = 32 ∨ (Rect.block (s := S8x2048x2048) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S8x2048x128.size a
  hwx0_3 : ∀ i : grid0.Coords, EltTy.bits .f32 = 32 ∨ (Rect.block (s := S8x2048x128) S1x512x128.size (cc0_transform_3 i) (hinb0_3 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S128x128 : Shape := ⟨2, ![128, 128]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S128x128, .f32⟩
  | .hbm, ⟨3, _⟩ => ⟨S8x2048x128, .f32⟩
  | .hbm, ⟨4, _⟩ => ⟨S8x2048x2048, .f32⟩
  | .hbm, ⟨5, _⟩ => ⟨S8x2048x2048, .f32⟩
  | .hbm, ⟨6, _⟩ => ⟨S_, .f32⟩
  | .hbm, ⟨7, _⟩ => ⟨S8x2048x2048, .f32⟩
  | .hbm, ⟨8, _⟩ => ⟨S8x2048x2048, .i1⟩
  | .hbm, ⟨9, _⟩ => ⟨S_, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S8x2048x128, .f32⟩
  | .hbm, ⟨28, _⟩ => ⟨S_, .f32⟩
  | .hbm, ⟨29, _⟩ => ⟨S8x2048x128, .f32⟩
  | .hbm, ⟨30, _⟩ => ⟨S8x2048x128, .i1⟩
  | .hbm, ⟨31, _⟩ => ⟨S_, .f32⟩
  | .hbm, ⟨32, _⟩ => ⟨S8x2048x128, .f32⟩
  | .hbm, ⟨33, _⟩ => ⟨S8x2048x128, .i1⟩
  | .hbm, ⟨34, _⟩ => ⟨S_, .f32⟩
  | .hbm, ⟨35, _⟩ => ⟨S_, .f32⟩
  | .hbm, ⟨36, _⟩ => ⟨S8x2048x128, .f32⟩
  | .hbm, ⟨37, _⟩ => ⟨S8x2048x128, .f32⟩
  | .hbm, ⟨38, _⟩ => ⟨S8x2048x128, .f32⟩
  | .hbm, ⟨39, _⟩ => ⟨S_, .f32⟩
  | .hbm, ⟨40, _⟩ => ⟨S8x2048x128, .f32⟩
  | .hbm, ⟨41, _⟩ => ⟨S8x2048x128, .f32⟩
  | .hbm, ⟨42, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_cst_0 : Ref sig .tc := ⟨.hbm, 31, rfl⟩
abbrev main_call1_v2 : Ref sig .tc := ⟨.hbm, 32, rfl⟩
abbrev main_call1_v3 : Ref sig .tc := ⟨.hbm, 33, rfl⟩
abbrev main_call1_cst_1 : Ref sig .tc := ⟨.hbm, 34, rfl⟩
abbrev main_call1_call0_v0 : Ref sig .tc := ⟨.hbm, 35, rfl⟩
abbrev main_call1_call0_v1 : Ref sig .tc := ⟨.hbm, 36, rfl⟩
abbrev main_call1_v4 : Ref sig .tc := ⟨.hbm, 37, rfl⟩
abbrev main_call1_v5 : Ref sig .tc := ⟨.hbm, 38, rfl⟩
abbrev main_call1_cst_2 : Ref sig .tc := ⟨.hbm, 39, rfl⟩
abbrev main_call1_v6 : Ref sig .tc := ⟨.hbm, 40, rfl⟩
abbrev main_call1_v7 : Ref sig .tc := ⟨.hbm, 41, rfl⟩
abbrev main_v18 : Ref sig .tc := ⟨.hbm, 42, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S_S8x2048x128 : S_.BroadcastsInDim S8x2048x128 (![] : Fin 0 → Fin S8x2048x128.rank)
  dot_S8x2048x128_S128x128_S8x2048x128_2_0_01_1_n_n_wf : DotDims.WF S8x2048x128 S128x128 S8x2048x128 [2] [0] [0, 1] [1] [] []
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x128_S128x128_S8x2048x128_2_0_01_1_n_n : DotDims S8x2048x128 S128x128 S8x2048x128 where
  lhsContracting := [2]
  rhsContracting := [0]
  lhsNonContracting := [0, 1]
  rhsNonContracting := [1]
  lhsBatch := []
  rhsBatch := []
  wf := dot_S8x2048x128_S128x128_S8x2048x128_2_0_01_1_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Pieces.lean ====
/-
  What one grid point of the attention kernel leaves behind, as values.

  The grid is (batch, query tile). At a batch's first tile the body stores the projected features `x[b] · W` (2048 rows) into the
  scratch that persists across the batch's tiles, and every tile then reads that scratch twice — whole, as keys and values, and
  the tile's own 512 rows, as queries — beside the tile's 512 adjacency rows, and stores one 512-row output block. So:
  at a first tile the scratch ends at the projection of the point's `x` and `W` blocks, and the output block is the attention
  payload over that projection; at a later tile the scratch is left as found, and the output block is the same payload over what
  was found. The payloads themselves are the body's arithmetic as two pure terms (`k0_pay1`, `k0_pay2`).
-/
import proofs.«127434_j21912923144629_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The query rows of a tile: the 512 rows of the 2048-row scratch contents `xs` that start at row `512 · (tile)`. -/
def qrows (i : grid0.Coords) (xs : Vec F S2048x128 .f32) : Vec F S512x128 .f32 :=
  View.ld xs (Rect.unit (s := S2048x128) (k0_off1 i) S512x128.size (k0_off1_inb i))

/-- At a batch's first tile the scratch ends at the projection of the point's blocks of `x` and `W`. -/
theorem scratch_A (c : Dev nD) (i : grid0.Coords) (a2 : Memref sig .tc .vmem S1x2048x128 .f32) (h2 : a2.IsWhole)
    (a3 : Memref sig .tc .vmem S128x128 .f32) (h3 : a3.IsWhole) (a4 : Memref sig .tc .vmem S1x512x2048 .f32) (h4 : a4.IsWhole)
    (a5 : Memref sig .tc .vmem S1x512x128 .f32) (h5 : a5.IsWhole) (a6 : Memref sig .tc .vmem S2048x128 .f32) (h6 : a6.IsWhole)
    (hc : cond0_0 i) (x0 : Vec F S1x2048x128 .f32) (x1 : Vec F S128x128 .f32) (x2 : Vec F S1x512x2048 .f32) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h2.read_unread, h3.read_unread, View.ld_unit_zero (S := S1x2048x128) hz3,
    View.ld_unit_zero (S := S128x128) hz2]

/-- At a batch's first tile the output block is the attention payload over the projection just stored: its queries the tile's
    rows of it, its keys and values the whole of it, beside the tile's adjacency rows. -/
theorem out_A (c : Dev nD) (i : grid0.Coords) (a2 : Memref sig .tc .vmem S1x2048x128 .f32) (h2 : a2.IsWhole)
    (a3 : Memref sig .tc .vmem S128x128 .f32) (h3 : a3.IsWhole) (a4 : Memref sig .tc .vmem S1x512x2048 .f32) (h4 : a4.IsWhole)
    (a5 : Memref sig .tc .vmem S1x512x128 .f32) (h5 : a5.IsWhole) (a6 : Memref sig .tc .vmem S2048x128 .f32) (h6 : a6.IsWhole)
    (hc : cond0_0 i) (x0 : Vec F S1x2048x128 .f32) (x1 : Vec F S128x128 .f32) (x2 : Vec F S1x512x2048 .f32) :
    out0_A_3 c i a2 h2 a3 h3 a4 h4 a5 h5 a6 h6 hc x0 x1 x2
      = k0_pay2 (qrows i (k0_pay1 x0 x1)) (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz3]
  simp only [View.readAt_eq_ld, h2.read_unread, h3.read_unread, h4.read_unread, View.ld_unit_zero (S := S1x2048x128) hz3,
    View.ld_unit_zero (S := S128x128) hz2, View.ld_unit_zero (S := S1x512x2048) hz3]
  rw [View.read_writes_junk_eq_canon, View.canon_unit_zero (S := S2048x128) hz2,
    View.readCov_unit_zero (S := S2048x128) _ hz2]
  rfl

/-- At a later tile the output block is the same payload over the scratch as the point before left it. -/
theorem out_B (c : Dev nD) (i : grid0.Coords) (a2 : Memref sig .tc .vmem S1x2048x128 .f32) (h2 : a2.IsWhole)
    (a3 : Memref sig .tc .vmem S128x128 .f32) (h3 : a3.IsWhole) (a4 : Memref sig .tc .vmem S1x512x2048 .f32) (h4 : a4.IsWhole)
    (a5 : Memref sig .tc .vmem S1x512x128 .f32) (h5 : a5.IsWhole) (a6 : Memref sig .tc .vmem S2048x128 .f32) (h6 : a6.IsWhole)
    (hc : ¬cond0_0 i) (x0 : Vec F S1x2048x128 .f32) (x1 : Vec F S128x128 .f32) (x2 : Vec F S1x512x2048 .f32)
    (xs : Vec F S2048x128 .f32) :
    out0_B_3 c i a2 h2 a3 h3 a4 h4 a5 h5 a6 h6 hc x0 x1 x2 xs = k0_pay2 (qrows i xs) xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz3]
  simp only [View.readAt_eq_ld, h4.read_unread, h6.read_unread, View.ld_unit_zero (S := S2048x128) hz2,
    View.ld_unit_zero (S := S1x512x2048) hz3]
  rfl

end Cert.KernelIdeal.Pieces

end
-- ==== Proof.Spec.lean ====
/-
  One layer of dense graph attention over the extended reals, row by row.

  For a batch `b` the projected features are `P = x[b] · W` (2048 rows of 128). For a query row `n` the logits against every
  row `m` are `⟨P n, P m⟩ + adj[b, n, m]` where `adj[b, n, m] > 0` and a fixed large negative word elsewhere; the row is
  normalised by the exponentials of its distances to its maximum (the maximum taken from `-∞`), the normalised row is applied
  to `P`, and the result passes through `elu`: `o` where `o > 0`, `exp o - 1` elsewhere.

  `head` states one such row over ABSTRACT keys `K`, a query `q` and an adjacency row `a`; `G` instantiates it at the
  projected rows of the argument arrays. The comparison against zero and the selection are kept as the scalar operations
  themselves: both programs apply the same ones and no law about them is needed.
-/
import Idealize.ShloMosaic.PureOps.Ideal
import Idealize.ShloMosaic.Lib.ValueIdx

noncomputable section

open scoped BigOperators

namespace Cert.Spec

open Idealize.ShloMosaic Idealize.ShloMosaic.ValueIdx

/-- The flag "`a > 0`", against the zero word. -/
def pos (a : EReal) : BitVec 1 :=
  FloatOps.cmpf (F := Ideal) (φ := .f32) .ogt a (Ideal.ofBits .f32 0x00000000#32)

/-- The masked logit of the query `q` against key `m`: the inner product plus the adjacency entry where that entry is
    positive, the fill word elsewhere. -/
def logit (K : Fin 2048 → Fin 128 → EReal) (q : Fin 128 → EReal) (a : Fin 2048 → EReal) (m : Fin 2048) : EReal :=
  Scalar.select (pos (a m)) ((∑ e : Fin 128, q e * K m e) + a m) (Ideal.ofBits .f32 0xD9FFCB9E#32)

/-- The row's maximum, folded from `-∞`. -/
def rowMax (K : Fin 2048 → Fin 128 → EReal) (q : Fin 128 → EReal) (a : Fin 2048 → EReal) : EReal :=
  (Finset.univ : Finset (Fin 2048)).fold max (Ideal.ofBits .f32 0xFF800000#32) (logit K q a)

/-- The unnormalised weight of key `m`. -/
def weight (K : Fin 2048 → Fin 128 → EReal) (q : Fin 128 → EReal) (a : Fin 2048 → EReal) (m : Fin 2048) : EReal :=
  Ideal.exp (logit K q a m - rowMax K q a)

/-- The attention weight of key `m`: its weight over the row's total. -/
def attn (K : Fin 2048 → Fin 128 → EReal) (q : Fin 128 → EReal) (a : Fin 2048 → EReal) (m : Fin 2048) : EReal :=
  Ideal.div (weight K q a m) (∑ m' : Fin 2048, weight K q a m')

/-- The attention row applied to the keys, at feature `e`. -/
def mixed (K : Fin 2048 → Fin 128 → EReal) (q : Fin 128 → EReal) (a : Fin 2048 → EReal) (e : Fin 128) : EReal :=
  ∑ m : Fin 2048, attn K q a m * K m e

/-- `elu`: the value where it is positive, `exp - 1` elsewhere (the `1` kept as its word). -/
def elu (o : EReal) : EReal :=
  Scalar.select (pos o) o (Ideal.exp o - Ideal.ofBits .f32 0x3F800000#32)

/-- One output entry of one attention row. -/
def head (K : Fin 2048 → Fin 128 → EReal) (q : Fin 128 → EReal) (a : Fin 2048 → EReal) (e : Fin 128) : EReal :=
  elu (mixed K q a e)

/-- Row `n` of batch `b` of `x` against column `e` of `W`. -/
def proj (x : FVec Ideal ⟨3, ![8, 2048, 128]⟩ .f32) (w : FVec Ideal ⟨2, ![128, 128]⟩ .f32)
    (b : Fin 8) (n : Fin 2048) (e : Fin 128) : EReal :=
  ∑ d : Fin 128, x (ix3 b n d) * w (ix2 d e)

/-- The layer's output at batch `b`, row `n`, feature `e`. -/
def Gat (x : FVec Ideal ⟨3, ![8, 2048, 128]⟩ .f32) (w : FVec Ideal ⟨2, ![128, 128]⟩ .f32)
    (adj : FVec Ideal ⟨3, ![8, 2048, 2048]⟩ .f32) (b : Fin 8) (n : Fin 2048) (e : Fin 128) : EReal :=
  head (fun m e' => proj x w b m e') (fun e' => proj x w b n e') (fun m => adj (ix3 b n m)) e

/-- The layer's output as one array. -/
def G (x : FVec Ideal ⟨3, ![8, 2048, 128]⟩ .f32) (w : FVec Ideal ⟨2, ![128, 128]⟩ .f32)
    (adj : FVec Ideal ⟨3, ![8, 2048, 2048]⟩ .f32) : FVec Ideal ⟨3, ![8, 2048, 128]⟩ .f32 :=
  fun j => Gat x w adj (j 0) (j 1) (j 2)

theorem G_apply (x : FVec Ideal ⟨3, ![8, 2048, 128]⟩ .f32) (w : FVec Ideal ⟨2, ![128, 128]⟩ .f32)
    (adj : FVec Ideal ⟨3, ![8, 2048, 2048]⟩ .f32) (b : Fin 8) (n : Fin 2048) (e : Fin 128) :
    G x w adj (ix3 b n e) = Gat x w adj b n e := rfl

end Cert.Spec

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.LibRowMax.lean ====
/-
  General lemmas about a row-wise maximum over the extended reals.
-/
import Idealize.ShloMosaic.Lib.Pipeline.Value
import Idealize.ShloMosaic.Lib.ValueIdx
import Idealize.ShloMosaic.PureOps.Ideal.Laws

noncomputable section

namespace Cert.Lib.RowMax

open Idealize.ShloMosaic Idealize.ShloMosaic.ValueIdx

/-- A maximum along the lanes of an `n × k` array taken from the word of `-∞` reads, at row `r`, the fold of `max` from
    that word over the row's `k` entries (in any order: `max` commutes and associates). -/
theorem laneMax_apply {n k : ℕ} (src : FVec Ideal ⟨2, ![n, k]⟩ .f32) (h : (⟨2, ![n, k]⟩ : Shape).Reduces [1] ⟨1, ![n]⟩)
    (hφ : FKind.Formats .f32) (hacc : (0xFF800000#32 : BitVec 32) = 0xFF800000#32) (r : Fin n) :
    multiReduction .maximumf [1] ⟨1, ![n]⟩ src 0xFF800000#32 h hφ hacc (ix1 r)
      = (Finset.univ : Finset (Fin k)).fold max (Ideal.ofBits .f32 0xFF800000#32) (fun c => src (ix2 r c)) := by
  refine (Ideal.multiReduction_maximumf_single src 0xFF800000#32 h hφ hacc (ix1 r)).trans ?_
  refine congrArg (fun f => (Finset.univ : Finset (Fin k)).fold max (Ideal.ofBits .f32 0xFF800000#32) f) (funext fun c => ?_)
  exact congrArg src (funext fun ax => Fin.ext (by
    match ax with
    | ⟨0, _⟩ => rfl
    | ⟨1, _⟩ => rfl))

/-- The exponential of a vector read at an entry. -/
theorem exp_apply {s : Shape} {φ : FTy} (x : FVec Ideal s φ) (i : s.Idx) : exp x i = Ideal.exp (x i) := rfl

/-- The host's exponential of a vector read at an entry: the same function. -/
theorem hostExp_apply {s : Shape} {φ : FTy} (x : FVec Ideal s φ) (i : s.Idx) : Host.exp x i = Ideal.exp (x i) := rfl

/-- The word `0xFF800000` is the bottom of the extended reals, so a maximum against it is the other operand. -/
theorem max_negInf (y : EReal) : max (Ideal.ofBits .f32 0xFF800000#32) y = y := by
  have h : Ideal.ofBits .f32 0xFF800000#32 = (⊥ : EReal) := by simp [Ideal.ofBits, Ideal.ieee]
  rw [h, max_eq_right bot_le]

end Cert.Lib.RowMax

end
-- ==== Proof.PayRead.lean ====
/-
  The two payloads of the attention kernel's body read at an entry, over the extended reals.

  The first payload is the projection: at row `n`, feature `e` it is `∑ d, x(0, n, d) · W(d, e)` — a matrix product accumulated
  into zero is its plain sum, and the leading unit axis of the `x` block is dropped by a cast.

  The second is one tile of attention rows. Read at row `r`, feature `e`, through its operations in order — the logits (a matrix
  product against the keys plus the adjacency row, selected against the fill word where the adjacency entry is not positive), the
  row maximum from `-∞`, the exponentials of the distances to it, their total, the quotient, the product with the values (whose
  narrowing to half width is the identity here), and `elu` — it is `Spec.head` of the keys, the tile's query row `r` and its
  adjacency row `r`, by coordinates. Each non-pointwise operation is read by one lemma at `ix2 r m`; nothing is evaluated.
-/
import proofs.«127434_j21912923144629_2_alg».proof.Proof.Gen.KernelIdeal.Skeleton
import proofs.«127434_j21912923144629_2_alg».proof.Proof.Spec
import proofs.«127434_j21912923144629_2_alg».proof.Proof.LibGram
import proofs.«127434_j21912923144629_2_alg».proof.Proof.LibRowOps
import proofs.«127434_j21912923144629_2_alg».proof.Proof.LibRowMax
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.PayRead

open Cert.KernelIdeal Cert.KernelIdeal.Gen

/-! ## The three matrix products' operand entries -/

local notation "D1" => dot_S2048x128_S128x128_S2048x128_1_0_0_1_n_n
local notation "D2" => dot_S512x128_S2048x128_S512x2048_1_1_0_0_n_n
local notation "D3" => dot_S512x2048_S2048x128_S512x128_1_0_0_1_n_n

theorem d1_lhs (n : Fin 2048) (e : Fin 128) (c : Fin 128) :
    DotDims.lhsIdx D1 (ix2 n e) ((contrEquiv1 D1 128 rfl rfl).symm c) = ix2 n c := by
  funext a; apply Fin.ext
  match a with
  | ⟨0, _⟩ => rfl
  | ⟨1, _⟩ => exact (DotDims.lhsIdx_val_of_single D1 rfl _ _).trans (contrEquiv1_symm_val D1 128 rfl rfl c)

theorem d1_rhs (n : Fin 2048) (e : Fin 128) (c : Fin 128) :
    DotDims.rhsIdx D1 (ix2 n e) ((contrEquiv1 D1 128 rfl rfl).symm c) = ix2 c e := by
  funext a; apply Fin.ext
  match a with
  | ⟨0, _⟩ => exact (DotDims.rhsIdx_val_of_single D1 rfl _ _).trans (contrEquiv1_symm_val D1 128 rfl rfl c)
  | ⟨1, _⟩ => rfl

/-- The stored projection at row `n`, feature `e`: row `n` of the `x` block against column `e` of `W`. -/
theorem pay1_apply (x0 : FVec Ideal S1x2048x128 .f32) (x1 : FVec Ideal S128x128 .f32) (n : Fin 2048) (e : Fin 128) :
    k0_pay1 (F := Ideal) x0 x1 (ix2 n e) = ∑ d : Fin 128, x0 (ix3 (0 : Fin 1) n d) * x1 (ix2 d e) := by
  unfold k0_pay1
  rw [shapeCast_self]
  refine (Cert.Lib.Gram.matmul_zero_single_apply D1 128 rfl rfl _ _ _ (ix2 n e) (fun c => ix2 n c) (fun c => ix2 c e)
    (d1_lhs n e) (d1_rhs n e)).trans ?_
  exact Finset.sum_congr rfl fun d _ => by rw [shapeCast_1ab_ab_apply]

/-! ## The attention payload, stage by stage -/

theorem d2_lhs (r : Fin 512) (m : Fin 2048) (c : Fin 128) :
    DotDims.lhsIdx D2 (ix2 r m) ((contrEquiv1 D2 128 rfl rfl).symm c) = ix2 r c := by
  funext a; apply Fin.ext
  match a with
  | ⟨0, _⟩ => rfl
  | ⟨1, _⟩ => exact (DotDims.lhsIdx_val_of_single D2 rfl _ _).trans (contrEquiv1_symm_val D2 128 rfl rfl c)

theorem d2_rhs (r : Fin 512) (m : Fin 2048) (c : Fin 128) :
    DotDims.rhsIdx D2 (ix2 r m) ((contrEquiv1 D2 128 rfl rfl).symm c) = ix2 m c := by
  funext a; apply Fin.ext
  match a with
  | ⟨0, _⟩ => rfl
  | ⟨1, _⟩ => exact (DotDims.rhsIdx_val_of_single D2 rfl _ _).trans (contrEquiv1_symm_val D2 128 rfl rfl c)

theorem d3_lhs (r : Fin 512) (e : Fin 128) (c : Fin 2048) :
    DotDims.lhsIdx D3 (ix2 r e) ((contrEquiv1 D3 2048 rfl rfl).symm c) = ix2 r c := by
  funext a; apply Fin.ext
  match a with
  | ⟨0, _⟩ => rfl
  | ⟨1, _⟩ => exact (DotDims.lhsIdx_val_of_single D3 rfl _ _).trans (contrEquiv1_symm_val D3 2048 rfl rfl c)

theorem d3_rhs (r : Fin 512) (e : Fin 128) (c : Fin 2048) :
    DotDims.rhsIdx D3 (ix2 r e) ((contrEquiv1 D3 2048 rfl rfl).symm c) = ix2 c e := by
  funext a; apply Fin.ext
  match a with
  | ⟨0, _⟩ => exact (DotDims.rhsIdx_val_of_single D3 rfl _ _).trans (contrEquiv1_symm_val D3 2048 rfl rfl c)
  | ⟨1, _⟩ => rfl

section Stages

variable (v6 : FVec Ideal S512x128 .f32) (v7 : FVec Ideal S2048x128 .f32) (v8 : FVec Ideal S1x512x2048 .f32)

/-- The keys and values, the query row `r` and the adjacency row `r` of one tile, by coordinates. -/
abbrev keys : Fin 2048 → Fin 128 → EReal := fun m e => v7 (ix2 m e)
abbrev query (r : Fin 512) : Fin 128 → EReal := fun e => v6 (ix2 r e)
abbrev adjRow (r : Fin 512) : Fin 2048 → EReal := fun m => v8 (ix3 (0 : Fin 1) r m)

/-- The tile's masked logits. -/
def masked : FVec Ideal S512x2048 .f32 :=
  select (cmpf (F := Ideal) .ogt (shapeCast S512x2048 v8 shapeCasts_S1x512x2048_S512x2048) (broadcast S512x2048 (Scalar.ofBits .f32 0x00000000#32)))
    (addf (matmul D2 (some .fp32) v6 v7 (constant S512x2048 .f32 0x00000000#32)) (shapeCast S512x2048 v8 shapeCasts_S1x512x2048_S512x2048))
    (broadcast S512x2048 (Scalar.ofBits .f32 0xD9FFCB9E#32))

theorem masked_apply (r : Fin 512) (m : Fin 2048) :
    masked v6 v7 v8 (ix2 r m) = Cert.Spec.logit (keys v7) (query v6 r) (adjRow v8 r) m := by
  unfold masked Cert.Spec.logit Cert.Spec.pos
  rw [select_apply, cmpf_apply, addf_apply, broadcast_apply, broadcast_apply, shapeCast_1ab_ab_apply,
    Cert.Lib.Gram.matmul_zero_single_apply D2 128 rfl rfl _ _ _ (ix2 r m) (fun c => ix2 r c) (fun c => ix2 m c)
      (d2_lhs r m) (d2_rhs r m)]
  rfl

/-- Each row's maximum. -/
def rowmax : FVec Ideal S512 .f32 :=
  multiReduction .maximumf [1] S512 (masked v6 v7 v8) 0xFF800000#32 reduces_S512x2048_S512 (.inl rfl) rfl

theorem rowmax_apply (r : Fin 512) :
    rowmax v6 v7 v8 (ix1 r) = Cert.Spec.rowMax (keys v7) (query v6 r) (adjRow v8 r) := by
  unfold rowmax Cert.Spec.rowMax
  refine (Cert.Lib.RowMax.laneMax_apply (masked v6 v7 v8) reduces_S512x2048_S512 _ _ r).trans ?_
  exact congrArg (fun f => (Finset.univ : Finset (Fin 2048)).fold max (Ideal.ofBits .f32 0xFF800000#32) f)
    (funext fun m => masked_apply v6 v7 v8 r m)

/-- The unnormalised weights. -/
def weights : FVec Ideal S512x2048 .f32 :=
  exp (subf (masked v6 v7 v8)
    (broadcastTo S512x2048 (shapeCast S512x1 (rowmax v6 v7 v8) shapeCasts_S512_S512x1) broadcasts_S512x1_S512x2048))

theorem weights_apply (r : Fin 512) (m : Fin 2048) :
    weights v6 v7 v8 (ix2 r m) = Cert.Spec.weight (keys v7) (query v6 r) (adjRow v8 r) m := by
  unfold weights Cert.Spec.weight
  rw [Cert.Lib.RowMax.exp_apply, subf_apply, Cert.Lib.RowOps.broadcastTo_a1_ab_apply, Cert.Lib.Gram.shapeCast_a_a1_apply, masked_apply, rowmax_apply]

/-- Each row's total weight. -/
def total : FVec Ideal S512 .f32 :=
  multiReduction .add [1] S512 (weights v6 v7 v8) 0x00000000#32 reduces_S512x2048_S512 (.inl rfl) rfl

theorem total_apply (r : Fin 512) :
    total v6 v7 v8 (ix1 r) = ∑ m : Fin 2048, Cert.Spec.weight (keys v7) (query v6 r) (adjRow v8 r) m := by
  unfold total
  rw [Cert.Lib.RowOps.laneSum_apply]
  exact Finset.sum_congr rfl fun m _ => weights_apply v6 v7 v8 r m

/-- The normalised rows. -/
def attnv : FVec Ideal S512x2048 .f32 :=
  divf (weights v6 v7 v8)
    (broadcastTo S512x2048 (shapeCast S512x1 (total v6 v7 v8) shapeCasts_S512_S512x1) broadcasts_S512x1_S512x2048)

theorem attnv_apply (r : Fin 512) (m : Fin 2048) :
    attnv v6 v7 v8 (ix2 r m) = Cert.Spec.attn (keys v7) (query v6 r) (adjRow v8 r) m := by
  unfold attnv Cert.Spec.attn
  rw [divf_apply, Cert.Lib.RowOps.broadcastTo_a1_ab_apply, Cert.Lib.Gram.shapeCast_a_a1_apply, weights_apply, total_apply]

/-- The normalised rows applied to the values (the narrowing of both operands changes nothing over the extended reals). -/
def mixedv : FVec Ideal S512x128 .f32 :=
  matmul D3 none (truncf .bf16 (attnv v6 v7 v8) bitsLt_bf16_f32) (truncf .bf16 v7 bitsLt_bf16_f32)
    (constant S512x128 .f32 0x00000000#32)

theorem mixedv_apply (r : Fin 512) (e : Fin 128) :
    mixedv v6 v7 v8 (ix2 r e) = Cert.Spec.mixed (keys v7) (query v6 r) (adjRow v8 r) e := by
  unfold mixedv Cert.Spec.mixed
  refine (Cert.Lib.Gram.matmul_zero_single_apply D3 2048 rfl rfl none (truncf .bf16 (attnv v6 v7 v8) bitsLt_bf16_f32)
    (truncf .bf16 v7 bitsLt_bf16_f32) (ix2 r e) (fun c => ix2 r c) (fun c => ix2 c e) (d3_lhs r e) (d3_rhs r e)).trans ?_
  exact Finset.sum_congr rfl fun m _ => by rw [truncf_apply, truncf_apply, attnv_apply]

/-- The payload is `elu` of that, with a unit axis in front. -/
theorem pay2_eq : k0_pay2 (F := Ideal) v6 v7 v8
    = shapeCast S1x512x128 (select (cmpf (F := Ideal) .ogt (mixedv v6 v7 v8) (broadcast S512x128 (Scalar.ofBits .f32 0x00000000#32)))
        (mixedv v6 v7 v8) (subf (exp (mixedv v6 v7 v8)) (broadcast S512x128 (Scalar.ofBits .f32 0x3F800000#32))))
        shapeCasts_S512x128_S1x512x128 := by
  unfold k0_pay2 mixedv attnv total weights rowmax masked
  rfl

/-- The output block at row `r`, feature `e`: one attention row over the loaded keys, the tile's query row `r` and its
    adjacency row `r`. -/
theorem pay2_apply (r : Fin 512) (e : Fin 128) :
    k0_pay2 (F := Ideal) v6 v7 v8 (ix3 (0 : Fin 1) r e) = Cert.Spec.head (keys v7) (query v6 r) (adjRow v8 r) e := by
  rw [pay2_eq, shapeCast_ab_1ab_apply, select_apply, cmpf_apply, subf_apply, broadcast_apply, broadcast_apply]
  rw [Cert.Lib.RowMax.exp_apply, mixedv_apply]
  rfl

end Stages

end Cert.KernelIdeal.PayRead

end
-- ==== Proof.Blocks.lean ====
/-
  From the attention kernel's blocks to its result array.

  The grid has 32 points; point `t` is query tile `t % 4` of batch `t / 4`. Its `x` block is the whole of batch `t / 4` of `x`, its
  `W` block is `W`, its adjacency block is rows `512 · (t % 4) …` of batch `t / 4` of `adj`, and it writes back rows
  `512 · (t % 4) …` of batch `t / 4` of the result.

  The scratch that persists across a batch's tiles holds, after EVERY point, the projection `x[t / 4] · W` of the point's batch: a
  batch's first tile stores it, the other three leave it as found, and the point before a later tile belongs to the same batch —
  an induction on the point. So at every point the output block is the attention payload over that projection (queries: the
  tile's rows of it; keys and values: all of it) and the tile's adjacency rows, which entry by entry is the layer's output
  `Spec.G` at the tile's global rows. The 32 blocks tile the result array, hence the array after the run is `Spec.G` of the
  argument arrays.
-/
import proofs.«127434_j21912923144629_2_alg».proof.Proof.Gen.KernelIdeal.Value
import proofs.«127434_j21912923144629_2_alg».proof.Proof.Pieces
import proofs.«127434_j21912923144629_2_alg».proof.Proof.PayRead
import proofs.«127434_j21912923144629_2_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value Cert.KernelIdeal.Pieces Cert.KernelIdeal.PayRead

variable (m : (ℓ : Loc nD τ sig) → Buf (Elt Ideal) ℓ) (ρ : Dev nD → PrngReg)

/-! ## The grid: point `t` is tile `t % 4` of batch `t / 4` -/

/-- The printed index maps and the tile's row offset, decided once over the 32 points. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = t.val % 4 ∧ win0_3.index t (2 : Fin 3) = 0
    ∧ k0_off1 (grid0.coords t) (0 : Fin 2) = 512 * (t.val % 4) ∧ k0_off1 (grid0.coords t) (1 : Fin 2) = 0 :=
  (by decide +kernel : ∀ t : Fin grid0.N, _)

/-- Every (batch, tile) pair is some point's. -/
theorem idx_onto : ∀ (b : Fin 8) (i : Fin 4), ∃ t : Fin cfg0.N, t.val = 4 * b.val + i.val :=
  (by decide +kernel : ∀ (b : Fin 8) (i : Fin 4), ∃ t : Fin grid0.N, t.val = 4 * b.val + i.val)

/-- The batch of a point. -/
def batchOf (t : Fin cfg0.N) : Fin 8 := ⟨t.val / 4, by have h := t.isLt; have hN : cfg0.N = 32 := N_0; omega⟩

/-- The global row of the tile's row `r`. -/
def rowOf (t : Fin cfg0.N) (r : Fin 512) : Fin 2048 := ⟨512 * (t.val % 4) + r.val, by have := r.isLt; omega⟩

/-! ## The three input blocks, by coordinates -/

/-- The `x` block of a point is batch `t / 4` of `x`. -/
theorem xblk_apply (c : Dev nD) (t : Fin cfg0.N) (n : Fin 2048) (d : Fin 128) :
    (iblk m c 0 t : Vec Ideal S1x2048x128 .f32) (ix3 (0 : Fin 1) n d) = V m c main_arg0 (ix3 (batchOf t) n d) := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = t.val / 4; omega
  | ⟨1, _⟩ => show win0_0.index t (1 : Fin 3) * 2048 + 1 * n.val = n.val; omega
  | ⟨2, _⟩ => show win0_0.index t (2 : Fin 3) * 128 + 1 * d.val = d.val; omega

/-- The `W` block of every point is `W`. -/
theorem wblk_apply (c : Dev nD) (t : Fin cfg0.N) (d : Fin 128) (e : Fin 128) :
    (iblk m c 1 t : Vec Ideal S128x128 .f32) (ix2 d e) = V m c main_arg2 (ix2 d e) := by
  obtain ⟨-, -, -, e0, e1, -⟩ := idx_facts t
  unfold iblk
  rw [View.read_apply]
  show V m c main_arg2 _ = V m c main_arg2 _
  refine congrArg (V m c main_arg2) (funext fun a => Fin.ext ?_)
  match a with
  | ⟨0, _⟩ => show win0_1.index t (0 : Fin 2) * 128 + 1 * d.val = d.val; omega
  | ⟨1, _⟩ => show win0_1.index t (1 : Fin 2) * 128 + 1 * e.val = e.val; omega

/-- The adjacency block of a point is the tile's 512 rows of batch `t / 4` of `adj`. -/
theorem ablk_apply (c : Dev nD) (t : Fin cfg0.N) (r : Fin 512) (k : Fin 2048) :
    (iblk m c 2 t : Vec Ideal S1x512x2048 .f32) (ix3 (0 : Fin 1) r k) = V m c main_arg1 (ix3 (batchOf t) (rowOf t r) k) := by
  obtain ⟨-, -, -, -, -, e0, e1, e2, -⟩ := idx_facts t
  unfold iblk
  rw [View.read_apply]
  show V m c main_arg1 _ = V m c main_arg1 _
  refine congrArg (V m c main_arg1) (funext fun a => Fin.ext ?_)
  match a with
  | ⟨0, _⟩ => show win0_2.index t (0 : Fin 3) * 1 + 1 * 0 = t.val / 4; omega
  | ⟨1, _⟩ => show win0_2.index t (1 : Fin 3) * 512 + 1 * r.val = 512 * (t.val % 4) + r.val; omega
  | ⟨2, _⟩ => show win0_2.index t (2 : Fin 3) * 2048 + 1 * k.val = k.val; omega

/-! ## The scratch holds the batch's projection after every point -/

/-- The projection of batch `b`, as the scratch's contents. -/
def projArr (c : Dev nD) (b : Fin 8) : Vec Ideal S2048x128 .f32 :=
  fun j => Cert.Spec.proj (V m c main_arg0) (V m c main_arg2) b (j 0) (j 1)

theorem projArr_apply (c : Dev nD) (b : Fin 8) (n : Fin 2048) (e : Fin 128) :
    projArr m c b (ix2 n e) = Cert.Spec.proj (V m c main_arg0) (V m c main_arg2) b n e := rfl

/-- What a batch's first tile stores: the projection of the point's blocks is the batch's projection. -/
theorem pay1_blocks (c : Dev nD) (t : Fin cfg0.N) :
    k0_pay1 (F := Ideal) (iblk m c 0 t) (iblk m c 1 t) = projArr m c (batchOf t) := by
  funext j
  obtain ⟨n, e, rfl⟩ : ∃ (n : Fin 2048) (e : Fin 128), j = ix2 n e := ⟨j 0, j 1, eq_ix2 j⟩
  refine (pay1_apply _ _ n e).trans ?_
  show _ = Cert.Spec.proj (V m c main_arg0) (V m c main_arg2) (batchOf t) n e
  unfold Cert.Spec.proj
  exact Finset.sum_congr rfl fun d _ => by rw [xblk_apply m c t n d, wblk_apply m c t d e]

/-- At a batch's first tile the scratch ends at the batch's projection. -/
theorem scratch_first (c : Dev nD) (t : Fin cfg0.N) (h0 : t.val % 4 = 0) :
    (outsAt0 m c t.val t.isLt).2 = projArr m c (batchOf t) := by
  rw [outsAt0_A m c t h0]
  dsimp only
  exact (scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans
    (pay1_blocks m c t)

/-- At a later tile the scratch is left as the point before left it. -/
theorem scratch_later (c : Dev nD) (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  dsimp only
  rfl

/-- After every point the scratch holds the projection of the point's batch: stored at the batch's first tile, carried unchanged
    through its other three — by induction on the point. -/
theorem scratch_eq (c : Dev nD) : ∀ (n : ℕ) (h : n < cfg0.N), (outsAt0 m c n h).2 = projArr m c (batchOf ⟨n, h⟩)
  | 0, h => scratch_first m c ⟨0, h⟩ rfl
  | n + 1, h => by
    by_cases h0 : (n + 1) % 4 = 0
    · exact scratch_first m c ⟨n + 1, h⟩ h0
    · refine (scratch_later m c ⟨n + 1, h⟩ h0).trans ?_
      refine (scratch_eq c n (Nat.lt_of_succ_lt h)).trans ?_
      exact congrArg (projArr m c) (Fin.ext (by show n / 4 = (n + 1) / 4; omega))

/-! ## What each point writes back is its block of the layer's output -/

/-- A tile's query rows out of a batch's projection are that projection's rows `512 · (t % 4) + r`. -/
theorem qrows_apply (c : Dev nD) (t : Fin cfg0.N) (b : Fin 8) (r : Fin 512) (e : Fin 128) :
    qrows (F := Ideal) (grid0.coords t) (projArr m c b) (ix2 r e)
      = Cert.Spec.proj (V m c main_arg0) (V m c main_arg2) b (rowOf t r) e := by
  obtain ⟨-, -, -, -, -, -, -, -, -, -, -, o0, o1⟩ := idx_facts t
  unfold qrows
  show projArr m c b _ = _
  refine (congrArg (projArr m c b) (funext fun a => Fin.ext ?_)).trans (projArr_apply m c b (rowOf t r) e)
  match a with
  | ⟨0, _⟩ => show k0_off1 (grid0.coords t) (0 : Fin 2) + 1 * r.val = 512 * (t.val % 4) + r.val; omega
  | ⟨1, _⟩ => show k0_off1 (grid0.coords t) (1 : Fin 2) + 1 * e.val = e.val; omega

/-- The arrays the layer's output is stated over: the arguments as the region finds them. -/
abbrev Gm (c : Dev nD) : Vec Ideal S8x2048x128 .f32 :=
  Cert.Spec.G (V m c main_arg0) (V m c main_arg2) (V m c main_arg1)

/-- The attention payload over a batch's projection and a tile's adjacency rows, at row `r`, feature `e`, is the layer's
    output at the tile's global row. -/
theorem pay2_blocks (c : Dev nD) (t : Fin cfg0.N) (r : Fin 512) (e : Fin 128) :
    k0_pay2 (F := Ideal) (qrows (grid0.coords t) (projArr m c (batchOf t))) (projArr m c (batchOf t)) (iblk m c 2 t)
        (ix3 (0 : Fin 1) r e)
      = Gm m c (ix3 (batchOf t) (rowOf t r) e) := by
  refine (pay2_apply _ _ _ r e).trans ?_
  show _ = Cert.Spec.Gat (V m c main_arg0) (V m c main_arg2) (V m c main_arg1) (batchOf t) (rowOf t r) e
  unfold Cert.Spec.Gat
  have hq : query (qrows (F := Ideal) (grid0.coords t) (projArr m c (batchOf t))) r
      = fun e' => Cert.Spec.proj (V m c main_arg0) (V m c main_arg2) (batchOf t) (rowOf t r) e' :=
    funext fun e' => qrows_apply m c t (batchOf t) r e'
  have ha : adjRow (iblk m c 2 t) r = fun k => V m c main_arg1 (ix3 (batchOf t) (rowOf t r) k) :=
    funext fun k => ablk_apply m c t r k
  rw [hq, ha]
  rfl

/-- The block a point writes back, as the payload over the batch's projection — at a batch's first tile over the projection
    just stored, at a later tile over the scratch as found, which the invariant says is the same. -/
theorem flushed_pay (c : Dev nD) (t : Fin cfg0.N) :
    (dats m 0 c).flushed 3 t = (cfg0.win 3).cut (grid0.coords t)
      (k0_pay2 (F := Ideal) (qrows (grid0.coords t) (projArr m c (batchOf t))) (projArr m c (batchOf t)) (iblk m c 2 t)) := by
  by_cases h0 : t.val % 4 = 0
  · rw [flushed3_A m c t h0,
      out_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t),
      pay1_blocks m c t]
  · have hs : (outsAt0 m c (t.val - 1) (Nat.lt_of_le_of_lt (Nat.sub_le _ _) t.isLt)).2 = projArr m c (batchOf t) :=
      (scratch_later m c t h0).symm.trans (scratch_eq m c t.val t.isLt)
    rw [flushed3_B m c t h0,
      out_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) _,
      hs]

/-- WHAT POINT `t` WRITES BACK is block `t` of the layer's output. -/
theorem flushed_eq (c : Dev nD) (t : Fin cfg0.N) :
    (dats m 0 c).flushed 3 t = ((cfg0.win 3).blk t).view.read (Elt Ideal) (Gm m c) := by
  rw [flushed_pay m c t]
  obtain ⟨-, -, -, -, -, -, -, -, e0, e1, e2, -⟩ := idx_facts t
  funext j
  obtain ⟨u, r, e, rfl⟩ : ∃ (u : Fin 1) (r : Fin 512) (e : Fin 128), j = ix3 u r e := ⟨j 0, j 1, j 2, eq_ix3 j⟩
  obtain rfl : u = (0 : Fin 1) := Subsingleton.elim _ _
  show k0_pay2 (F := Ideal) _ _ _ (ix3 (0 : Fin 1) r e) = Gm m c (((cfg0.win 3).blk t).view.emb (ix3 (0 : Fin 1) r e))
  refine (pay2_blocks m c t r e).trans (congrArg (Gm m c) (funext fun a => Fin.ext ?_))
  match a with
  | ⟨0, _⟩ => show t.val / 4 = win0_3.index t (0 : Fin 3) * 1 + 1 * 0; omega
  | ⟨1, _⟩ => show 512 * (t.val % 4) + r.val = win0_3.index t (1 : Fin 3) * 512 + 1 * r.val; omega
  | ⟨2, _⟩ => show e.val = win0_3.index t (2 : Fin 3) * 128 + 1 * e.val; omega

/-! ## The blocks fill the array -/

/-- An index of the array is in point `t`'s block iff each coordinate is in the block's range on its axis. -/
theorem mem_blk (t : Fin cfg0.N) (i : S8x2048x128.Idx) :
    i ∈ ((cfg0.win 3).blk t).view.set ↔ ∀ a : Fin 3, win0_3.index t a * S1x512x128.size a ≤ (i a).val
      ∧ (i a).val < win0_3.index t a * S1x512x128.size a + S1x512x128.size a := by
  show i ∈ ((View.whole main_v0).slice (win0_3.rect t)).set ↔ _
  rw [View.set_slice_whole, Rect.mem_set_unit]
  exact Iff.rfl

/-- Every index of the output array is in some point's block: batch `i₀`, tile `i₁ / 512`. -/
theorem cover (i : S8x2048x128.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  have ht' : t.val = 4 * (i 0).val + (i 1).val / 512 := ht
  obtain ⟨-, -, -, -, -, -, -, -, e0, e1, e2, -⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 128 ≤ (i 2).val ∧ (i 2).val < win0_3.index t (2 : Fin 3) * 128 + 128; omega

/-- THE ARRAY after the run is the layer's output of the argument arrays. -/
theorem final (c : Dev nD) : (dats m 0 c).arrAt 3 cfg0.N = Gm m c :=
  (dats m 0 c).arrAt_eq_of_cover 3 (Gm m c) (fun t _ => flushed_eq m c t) cover

/-- The kernel's run, read: the result array at the layer's output of the arguments as launched, the arguments unchanged. -/
theorem run : θ_run defs (onTc (τ := τ) (main (F := Ideal))) ⟨m, fun _ => 0, ρ⟩ fun r => ∀ c : Dev nD,
      r.2.mem ((c : Thread nD τ).loc main_v0)
        = Cert.Spec.G (m ((c : Thread nD τ).loc main_arg0)) (m ((c : Thread nD τ).loc main_arg2)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Blocks

end
-- ==== Proof.RefRun.lean ====
/- The reference program as a straight line, and what it computes. Its @main calls module-local functions; a call
   executes the callee's body on the operands, so @main equals the list of its own operations with each callee's
   operations in the call's place, over that call's buffers. Read back from the list: every weakly fair execution
   terminates with the result buffer at `result` — the operations composed, stage by stage, as a pure function of the
   three argument arrays as launched — and the arguments unchanged. -/
import proofs.«127434_j21912923144629_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The reference's result as a function of its three argument arrays

Dense graph attention, stage by stage as the program computes it: the projection `x · W`; the scores
`(x·W)(x·W)ᵀ + adj` kept where `adj > 0` and replaced by a fixed negative constant elsewhere; a softmax along
the last axis (the row maximum taken from `-∞`, the exponentials of the distances to it, their row sums, the
quotient); the weighted sum of the projected rows; and `elu`. -/

/-- The projection `x · W`: the third axis of `x` contracted with the first of `w`. -/
def proj (x : FVec F S8x2048x128 .f32) (w : FVec F S128x128 .f32) : FVec F S8x2048x128 .f32 :=
  Host.dotGeneral dot_S8x2048x128_S128x128_S8x2048x128_2_0_01_1_n_n none x w

/-- The masked scores: per batch the inner products of the projected rows, plus `adj`; kept where `adj > 0`,
    the constant `0xD9FFCB9E` elsewhere. -/
def masked (xw : FVec F S8x2048x128 .f32) (adj : FVec F S8x2048x2048 .f32) : FVec F S8x2048x2048 .f32 :=
  select (cmpf .ogt adj (broadcastInDim S8x2048x2048 ![] bcast_S_S8x2048x2048 (constant S_ .f32 0x00000000#32)))
    (addf (Host.dotGeneral dot_S8x2048x128_S8x2048x128_S8x2048x2048_2_2_1_1_0_0 none xw xw) adj)
    (broadcastInDim S8x2048x2048 ![] bcast_S_S8x2048x2048 (constant S_ .f32 0xD9FFCB9E#32))

/-- Each row's maximum along the last axis, folded from `-∞` and then once more against `-∞`. -/
def rowMax (s : FVec F S8x2048x2048 .f32) : FVec F S8x2048 .f32 :=
  maximumf (broadcastInDim S8x2048 ![] bcast_S_S8x2048 (constant S_ .f32 0xFF800000#32))
    (Host.reduce FloatOps.maximumf s (constant S_ .f32 0xFF800000#32) reducesTo_S8x2048x2048_S8x2048_d2 h_S_)

/-- The exponentials of the distances to the row maximum. -/
def expd (s : FVec F S8x2048x2048 .f32) : FVec F S8x2048x2048 .f32 :=
  Host.exp (subf s (broadcastInDim S8x2048x2048 ![0, 1, 2] bcast_S8x2048x1_S8x2048x2048_0_1_2
    (broadcastInDim S8x2048x1 ![0, 1] bcast_S8x2048_S8x2048x1_0_1 (rowMax s))))

/-- The softmax along the last axis: the exponentials over their row sums (summed from `0`). -/
def soft (s : FVec F S8x2048x2048 .f32) : FVec F S8x2048x2048 .f32 :=
  Host.divf (expd s) (broadcastInDim S8x2048x2048 ![0, 1, 2] bcast_S8x2048x1_S8x2048x2048_0_1_2
    (broadcastInDim S8x2048x1 ![0, 1] bcast_S8x2048_S8x2048x1_0_1
      (Host.reduceAdd (expd s) (constant S_ .f32 0x00000000#32) reducesTo_S8x2048x2048_S8x2048_d2 h_S_)))

/-- The weighted sums of the projected rows: per batch, the last axis of `a` contracted with the rows of `xw`. -/
def mix (a : FVec F S8x2048x2048 .f32) (xw : FVec F S8x2048x128 .f32) : FVec F S8x2048x128 .f32 :=
  Host.dotGeneral dot_S8x2048x2048_S8x2048x128_S8x2048x128_2_1_1_2_0_0 none a xw

/-- `elu`: `o` where `o > 0`, and elsewhere `1 · expm1` of `o` with its positive entries replaced by `0`. -/
def elu (o : FVec F S8x2048x128 .f32) : FVec F S8x2048x128 .f32 :=
  select (cmpf .ogt o (broadcastInDim S8x2048x128 ![] bcast_S_S8x2048x128 (constant S_ .f32 0x00000000#32))) o
    (mulf (broadcastInDim S8x2048x128 ![] bcast_S_S8x2048x128 (constant S_ .f32 0x3F800000#32))
      (Host.expm1 (select (cmpf .ogt o (broadcastInDim S8x2048x128 ![] bcast_S_S8x2048x128 (constant S_ .f32 0x00000000#32)))
        (broadcastInDim S8x2048x128 ![] bcast_S_S8x2048x128 (constant S_ .f32 0x00000000#32)) o)))

/-- The whole layer. -/
def result (x : FVec F S8x2048x128 .f32) (adj : FVec F S8x2048x2048 .f32) (w : FVec F S128x128 .f32) :
    FVec F S8x2048x128 .f32 :=
  elu (mix (soft (masked (proj x w) adj)) (proj x w))

/-- @main's forty operations in order, the two calls unfolded at their sites: `_where`'s three (the fill
    constant converted to its own type, broadcast, the select) into `main_call0`'s buffers; `elu`'s fifteen into
    `main_call1`'s, of which `_where_0`'s three into `main_call1.call0`'s and `_where_1`'s one into `main_call1.call1`'s. -/
abbrev ops : List (HloOp τ sig (Elt F)) :=
  [ binary main_arg0 main_arg2 main_v0 ((fun l r => Host.dotGeneral dot_S8x2048x128_S128x128_S8x2048x128_2_0_01_1_n_n none l r) : (⟨S8x2048x128, .f32⟩ : BufTy).Contents (Elt F) → (⟨S128x128, .f32⟩ : BufTy).Contents (Elt F) → (⟨S8x2048x128, .f32⟩ : BufTy).Contents (Elt F)),
    binary main_v0 main_v0 main_v1 ((fun l r => Host.dotGeneral dot_S8x2048x128_S8x2048x128_S8x2048x2048_2_2_1_1_0_0 none l r) : (⟨S8x2048x128, .f32⟩ : BufTy).Contents (Elt F) → (⟨S8x2048x128, .f32⟩ : BufTy).Contents (Elt F) → (⟨S8x2048x2048, .f32⟩ : BufTy).Contents (Elt F)),
    binary main_v1 main_arg1 main_v2 (addf : (⟨S8x2048x2048, .f32⟩ : BufTy).Contents (Elt F) → (⟨S8x2048x2048, .f32⟩ : BufTy).Contents (Elt F) → (⟨S8x2048x2048, .f32⟩ : BufTy).Contents (Elt F)),
    nullary main_cst (constant S_ .f32 0x00000000#32),
    unary main_cst main_v3 (broadcastInDim S8x2048x2048 ![] bcast_S_S8x2048x2048 : (⟨S_, .f32⟩ : BufTy).Contents (Elt F) → (⟨S8x2048x2048, .f32⟩ : BufTy).Contents (Elt F)),
    binary main_arg1 main_v3 main_v4 (cmpf .ogt : (⟨S8x2048x2048, .f32⟩ : BufTy).Contents (Elt F) → (⟨S8x2048x2048, .f32⟩ : BufTy).Contents (Elt F) → (⟨S8x2048x2048, .i1⟩ : BufTy).Contents (Elt F)),
    nullary main_cst_0 (constant S_ .f32 0xD9FFCB9E#32),
    TRef.unary (.of main_cst_0) main_call0.v0 id,
    TRef.unary main_call0.v0 main_call0.v1 (broadcastInDim S8x2048x2048 ![] bcast_S_S8x2048x2048),
    TRef.ternary (.of main_v4) (.of main_v2) main_call0.v1 main_call0.v2 select,
    nullary main_cst_1 (constant S_ .f32 0xFF800000#32),
    binary main_v5 main_cst_1 main_v6 ((fun x v => Host.reduce FloatOps.maximumf x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    nullary main_cst_2 (constant S_ .f32 0xFF800000#32),
    unary main_cst_2 main_v7 (broadcastInDim S8x2048 ![] bcast_S_S8x2048 : (⟨S_, .f32⟩ : BufTy).Contents (Elt F) → (⟨S8x2048, .f32⟩ : BufTy).Contents (Elt F)),
    binary main_v7 main_v6 main_v8 (maximumf : (⟨S8x2048, .f32⟩ : BufTy).Contents (Elt F) → (⟨S8x2048, .f32⟩ : BufTy).Contents (Elt F) → (⟨S8x2048, .f32⟩ : BufTy).Contents (Elt F)),
    unary main_v8 main_v9 (broadcastInDim S8x2048x1 ![0, 1] bcast_S8x2048_S8x2048x1_0_1 : (⟨S8x2048, .f32⟩ : BufTy).Contents (Elt F) → (⟨S8x2048x1, .f32⟩ : BufTy).Contents (Elt F)),
    unary main_v9 main_v10 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v5 main_v10 main_v11 (subf : (⟨S8x2048x2048, .f32⟩ : BufTy).Contents (Elt F) → (⟨S8x2048x2048, .f32⟩ : BufTy).Contents (Elt F) → (⟨S8x2048x2048, .f32⟩ : BufTy).Contents (Elt F)),
    unary main_v11 main_v12 (Host.exp : (⟨S8x2048x2048, .f32⟩ : BufTy).Contents (Elt F) → (⟨S8x2048x2048, .f32⟩ : BufTy).Contents (Elt F)),
    nullary main_cst_3 (constant S_ .f32 0x00000000#32),
    binary main_v12 main_cst_3 main_v13 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    unary main_v13 main_v14 (broadcastInDim S8x2048x1 ![0, 1] bcast_S8x2048_S8x2048x1_0_1 : (⟨S8x2048, .f32⟩ : BufTy).Contents (Elt F) → (⟨S8x2048x1, .f32⟩ : BufTy).Contents (Elt F)),
    unary main_v14 main_v15 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v12 main_v15 main_v16 (Host.divf : (⟨S8x2048x2048, .f32⟩ : BufTy).Contents (Elt F) → (⟨S8x2048x2048, .f32⟩ : BufTy).Contents (Elt F) → (⟨S8x2048x2048, .f32⟩ : BufTy).Contents (Elt F)),
    binary main_v16 main_v0 main_v17 ((fun l r => Host.dotGeneral dot_S8x2048x2048_S8x2048x128_S8x2048x128_2_1_1_2_0_0 none l r) : (⟨S8x2048x2048, .f32⟩ : BufTy).Contents (Elt F) → (⟨S8x2048x128, .f32⟩ : BufTy).Contents (Elt F) → (⟨S8x2048x128, .f32⟩ : BufTy).Contents (Elt F)),
    TRef.nullary main_call1.cst (constant S_ .f32 0x00000000#32),
    TRef.unary main_call1.cst main_call1.v0 (broadcastInDim S8x2048x128 ![] bcast_S_S8x2048x128),
    TRef.binary (.of main_v17) main_call1.v0 main_call1.v1 (cmpf .ogt),
    TRef.nullary main_call1.cst_0 (constant S_ .f32 0x00000000#32),
    TRef.unary main_call1.cst_0 main_call1.v2 (broadcastInDim S8x2048x128 ![] bcast_S_S8x2048x128),
    TRef.binary (.of main_v17) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S8x2048x128 ![] bcast_S_S8x2048x128),
    TRef.ternary main_call1.v3 main_call1.call0.v1 (.of main_v17) main_call1.call0.v2 select,
    TRef.unary main_call1.call0.v2 main_call1.v5 Host.expm1,
    TRef.nullary main_call1.cst_2 (constant S_ .f32 0x3F800000#32),
    TRef.unary main_call1.cst_2 main_call1.v6 (broadcastInDim S8x2048x128 ![] bcast_S_S8x2048x128),
    TRef.binary main_call1.v6 main_call1.v5 main_call1.v7 mulf,
    TRef.ternary main_call1.v1 (.of main_v17) main_call1.v7 main_call1.call1.v0 select ]

-- forty binds re-associated: the rewrite under the chain recurses once per statement
set_option maxRecDepth 1024 in
/-- @main is that straight line: the functions' definitions unfolded at their calls and the records at their fields,
    both sides are one chain of steps once sequencing is reassociated. -/
theorem main_eq (c : Dev nD) : main (F := F) c = seq ops := by
  simp only [main, fn_where.body, fn_where_0.body, fn_where_1.body, fn_elu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- What the result buffer holds after the forty operations, from contents `V`: `result` of the three arguments'
    contents. Each operation's result is read at its own buffer and passed over at every other; the typed
    references' transports are the identity at these literal references; what remains is `result` unfolded. -/
theorem out_eq (V : Valuation τ sig (Elt F)) :
    after ops V (main_v18 : DevRef τ sig)
      = result (V (main_arg0 : DevRef τ sig)) (V (main_arg1 : DevRef τ sig)) (V (main_arg2 : DevRef τ sig)) := by
  after_results_simp
  simp only [TRef.toBuf, TRef.ofBuf, cast_eq, id_eq, result, elu, mix, soft, expd, rowMax, masked, proj]

/-- No operation writes an argument's buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On every device, for any float values, from any memory with zero counters: every weakly fair execution of
    @main terminates with the result buffer at `result` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v18).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.RefRead.lean ====
/- The reference's result read at an index, at the ideal values. Each stage of `RefRun.result` at coordinates
   (b, n, ·) over the extended reals: the projection a sum over the 128 input features; the masked scores the inner
   product of two projected rows plus the adjacency entry, selected against the fill constant; the row maximum a fold
   of `max` from `-∞`; the softmax the exponential of the distance to it over the row's sum of those; the mix a sum
   over the 2048 rows; `elu` pointwise. Together: the specification's layer output, entry by entry. -/
import proofs.«127434_j21912923144629_2_alg».proof.Proof.RefRun
import proofs.«127434_j21912923144629_2_alg».proof.Proof.Spec
import Idealize.ShloMosaic.Lib.IdealHost
import Idealize.ShloMosaic.Lib.StackMember
import Idealize.ShloMosaic.Lib.Pipeline.Value

noncomputable section

open scoped BigOperators

namespace Cert.ReferenceIdeal.RefRead

open Cert.ReferenceIdeal Cert.ReferenceIdeal.Gen Idealize.ShloMosaic Idealize.ShloMosaic.ValueIdx

/-! ## The three contractions at an index -/

/-- The projection at (b, n, e): row `n` of batch `b` of `x` against column `e` of `w`. -/
theorem proj_apply (x : FVec Ideal S8x2048x128 .f32) (w : FVec Ideal S128x128 .f32) (b : Fin 8) (n : Fin 2048) (e : Fin 128) :
    RefRun.proj x w (ix3 b n e) = ∑ d : Fin 128, x (ix3 b n d) * w (ix2 d e) := by
  show FloatOps.dotGeneral dot_S8x2048x128_S128x128_S8x2048x128_2_0_01_1_n_n none _ x w (ix3 b n e) = _
  rw [Ideal.dotGeneral_apply, ← Equiv.sum_comp (contrEquiv1 dot_S8x2048x128_S128x128_S8x2048x128_2_0_01_1_n_n 128 rfl rfl).symm]
  refine Finset.sum_congr rfl fun d _ => ?_
  have c := contrEquiv1_symm_val dot_S8x2048x128_S128x128_S8x2048x128_2_0_01_1_n_n 128 rfl rfl d
  have l : dot_S8x2048x128_S128x128_S8x2048x128_2_0_01_1_n_n.lhsIdx (ix3 b n e) ((contrEquiv1 _ 128 rfl rfl).symm d) = ix3 b n d := by
    funext ax; apply Fin.ext
    match ax with
    | ⟨0, _⟩ => simp [DotDims.lhsIdx, dot_S8x2048x128_S128x128_S8x2048x128_2_0_01_1_n_n]; rfl
    | ⟨1, _⟩ => simp [DotDims.lhsIdx, dot_S8x2048x128_S128x128_S8x2048x128_2_0_01_1_n_n]; rfl
    | ⟨2, _⟩ => simp [DotDims.lhsIdx, dot_S8x2048x128_S128x128_S8x2048x128_2_0_01_1_n_n]; exact c
  have r : dot_S8x2048x128_S128x128_S8x2048x128_2_0_01_1_n_n.rhsIdx (ix3 b n e) ((contrEquiv1 _ 128 rfl rfl).symm d) = ix2 d e := by
    funext ax; apply Fin.ext
    match ax with
    | ⟨0, _⟩ => simp [DotDims.rhsIdx, dot_S8x2048x128_S128x128_S8x2048x128_2_0_01_1_n_n]; exact c
    | ⟨1, _⟩ => simp [DotDims.rhsIdx, dot_S8x2048x128_S128x128_S8x2048x128_2_0_01_1_n_n]; rfl
  rw [l, r]

/-- The batched product of the projected rows with themselves at (b, n, m): the inner product of rows `n` and `m` of batch `b`. -/
theorem gram_apply (xw : FVec Ideal S8x2048x128 .f32) (b : Fin 8) (n m : Fin 2048) :
    Host.dotGeneral dot_S8x2048x128_S8x2048x128_S8x2048x2048_2_2_1_1_0_0 none xw xw (ix3 b n m) = ∑ d : Fin 128, xw (ix3 b n d) * xw (ix3 b m d) := by
  show FloatOps.dotGeneral dot_S8x2048x128_S8x2048x128_S8x2048x2048_2_2_1_1_0_0 none _ xw xw (ix3 b n m) = _
  rw [Ideal.dotGeneral_apply, ← Equiv.sum_comp (contrEquiv1 dot_S8x2048x128_S8x2048x128_S8x2048x2048_2_2_1_1_0_0 128 rfl rfl).symm]
  refine Finset.sum_congr rfl fun d _ => ?_
  have c := contrEquiv1_symm_val dot_S8x2048x128_S8x2048x128_S8x2048x2048_2_2_1_1_0_0 128 rfl rfl d
  have l : dot_S8x2048x128_S8x2048x128_S8x2048x2048_2_2_1_1_0_0.lhsIdx (ix3 b n m) ((contrEquiv1 _ 128 rfl rfl).symm d) = ix3 b n d := by
    funext ax; apply Fin.ext
    match ax with
    | ⟨0, _⟩ => simp [DotDims.lhsIdx, dot_S8x2048x128_S8x2048x128_S8x2048x2048_2_2_1_1_0_0]; rfl
    | ⟨1, _⟩ => simp [DotDims.lhsIdx, dot_S8x2048x128_S8x2048x128_S8x2048x2048_2_2_1_1_0_0]; rfl
    | ⟨2, _⟩ => simp [DotDims.lhsIdx, dot_S8x2048x128_S8x2048x128_S8x2048x2048_2_2_1_1_0_0]; exact c
  have r : dot_S8x2048x128_S8x2048x128_S8x2048x2048_2_2_1_1_0_0.rhsIdx (ix3 b n m) ((contrEquiv1 _ 128 rfl rfl).symm d) = ix3 b m d := by
    funext ax; apply Fin.ext
    match ax with
    | ⟨0, _⟩ => simp [DotDims.rhsIdx, dot_S8x2048x128_S8x2048x128_S8x2048x2048_2_2_1_1_0_0]; rfl
    | ⟨1, _⟩ => simp [DotDims.rhsIdx, dot_S8x2048x128_S8x2048x128_S8x2048x2048_2_2_1_1_0_0]; rfl
    | ⟨2, _⟩ => simp [DotDims.rhsIdx, dot_S8x2048x128_S8x2048x128_S8x2048x2048_2_2_1_1_0_0]; exact c
  rw [l, r]

/-- The weighted sums at (b, n, e): row `n` of batch `b` of `a` against column `e` of batch `b` of `xw`. -/
theorem mix_apply (a : FVec Ideal S8x2048x2048 .f32) (xw : FVec Ideal S8x2048x128 .f32) (b : Fin 8) (n : Fin 2048) (e : Fin 128) :
    RefRun.mix a xw (ix3 b n e) = ∑ m : Fin 2048, a (ix3 b n m) * xw (ix3 b m e) :=
  StackMember.dotGeneral_stack_apply _ none a xw b n e

/-- A row's value broadcast to a unit last axis and then along it reads the row's entry. -/
theorem bcast_row_apply (r : FVec Ideal S8x2048 .f32) (b : Fin 8) (n m : Fin 2048) :
    broadcastInDim S8x2048x2048 ![0, 1, 2] bcast_S8x2048x1_S8x2048x2048_0_1_2
      (broadcastInDim S8x2048x1 ![0, 1] bcast_S8x2048_S8x2048x1_0_1 r) (ix3 b n m) = r (ix2 b n) := by
  rw [broadcastInDim_apply _ _ _ _ (ix3 b n (0 : Fin 1)) (fun a => by
      match a with
      | ⟨0, _⟩ => rfl
      | ⟨1, _⟩ => rfl
      | ⟨2, _⟩ => rfl),
    broadcastInDim_apply _ _ _ _ (ix2 b n) (fun a => by
      match a with
      | ⟨0, _⟩ => rfl
      | ⟨1, _⟩ => rfl)]

/-- The last axis of an 8 × 2048 × 2048 array reduces away. -/
theorem reduces_last : S8x2048x2048.Reduces [2] S8x2048 := by decide

/-- The reduced index (b, n) with the coordinate `m` inserted on the last axis is (b, n, m). -/
theorem lift_last (b : Fin 8) (n m : Fin 2048) : reduces_last.lift (ix2 b n) m = ix3 b n m := by
  funext c; apply Fin.ext
  match c with
  | ⟨0, _⟩ => rfl
  | ⟨1, _⟩ => rfl
  | ⟨2, _⟩ => rfl

/-- The word `0xFF800000` is `-∞`, below everything. -/
theorem negInf_max (y : EReal) : max (Ideal.ofBits .f32 0xFF800000#32) y = y := by
  have h : Ideal.ofBits .f32 0xFF800000#32 = ⊥ := by simp [Ideal.ofBits, Ideal.ieee]
  rw [h]; exact max_eq_right bot_le

/-- The host's exponential at an index. -/
theorem hostExp_apply {s : Shape} (x : FVec Ideal s .f32) (i : s.Idx) : Host.exp x i = Ideal.exp (x i) := rfl
/-- The host's `expm1` at an index. -/
theorem hostExpm1_apply {s : Shape} (x : FVec Ideal s .f32) (i : s.Idx) : Host.expm1 x i = Ideal.exp (x i) - 1 := rfl

/-- The masked scores at (b, n, m). -/
theorem masked_apply (xw : FVec Ideal S8x2048x128 .f32) (adj : FVec Ideal S8x2048x2048 .f32) (b : Fin 8) (n m : Fin 2048) :
    RefRun.masked xw adj (ix3 b n m)
      = Scalar.select (FloatOps.cmpf (F := Ideal) (φ := .f32) .ogt (adj (ix3 b n m)) (Ideal.ofBits .f32 0x00000000#32))
          ((∑ d : Fin 128, xw (ix3 b n d) * xw (ix3 b m d)) + adj (ix3 b n m)) (Ideal.ofBits .f32 0xD9FFCB9E#32) := by
  unfold RefRun.masked
  rw [select_apply, cmpf_apply, addf_apply, gram_apply, broadcastInDim_scalar_apply, broadcastInDim_scalar_apply,
    constant_apply, constant_apply]

/-- The row maximum at (b, n): the fold of `max` from `-∞` over the row. -/
theorem rowMax_apply (s : FVec Ideal S8x2048x2048 .f32) (b : Fin 8) (n : Fin 2048) :
    RefRun.rowMax s (ix2 b n)
      = (Finset.univ : Finset (Fin 2048)).fold max (Ideal.ofBits .f32 0xFF800000#32) (fun m => s (ix3 b n m)) := by
  unfold RefRun.rowMax
  rw [maximumf_apply, broadcastInDim_scalar_apply, constant_apply, negInf_max,
    Host.reduce_eq_fold_single FloatOps.maximumf s _ _ reduces_last h_S_ (ix2 b n), constant_apply]
  have hf : (s ∘ reduces_last.lift (ix2 b n)) = fun m : Fin 2048 => s (ix3 b n m) := by
    funext m; exact congrArg s (lift_last b n m)
  rw [hf]
  rfl

/-- A row's sum from zero at (b, n). -/
theorem rowSum_apply (x : FVec Ideal S8x2048x2048 .f32) (b : Fin 8) (n : Fin 2048) :
    Host.reduceAdd x (constant (F := Ideal) S_ .f32 0x00000000#32) reducesTo_S8x2048x2048_S8x2048_d2 h_S_ (ix2 b n)
      = ∑ m : Fin 2048, x (ix3 b n m) := by
  rw [hostReduceAdd_apply, Ideal.hostReduceAdd_single _ reduces_last, constant_apply, Ideal.ofBits_zero_f32, zero_add]
  exact Finset.sum_congr rfl fun m _ => congrArg x (lift_last b n m)

/-- The exponential of the distance to the row maximum at (b, n, m). -/
theorem expd_apply (s : FVec Ideal S8x2048x2048 .f32) (b : Fin 8) (n m : Fin 2048) :
    RefRun.expd s (ix3 b n m) = Ideal.exp (s (ix3 b n m) - RefRun.rowMax s (ix2 b n)) := by
  unfold RefRun.expd
  rw [hostExp_apply, subf_apply, bcast_row_apply]

/-- The softmax at (b, n, m): the exponential over the row's sum of exponentials. -/
theorem soft_apply (s : FVec Ideal S8x2048x2048 .f32) (b : Fin 8) (n m : Fin 2048) :
    RefRun.soft s (ix3 b n m)
      = Ideal.div (RefRun.expd s (ix3 b n m)) (∑ m' : Fin 2048, RefRun.expd s (ix3 b n m')) := by
  unfold RefRun.soft
  rw [hostDivf_apply, bcast_row_apply, rowSum_apply]

/-- `elu` at an index: the value where it is positive; elsewhere `1 · (exp − 1)` of the value (the inner
    select returns the value itself there), which is `exp − 1`. -/
theorem elu_apply (o : FVec Ideal S8x2048x128 .f32) (j : S8x2048x128.Idx) : RefRun.elu o j = Cert.Spec.elu (o j) := by
  unfold RefRun.elu Cert.Spec.elu Cert.Spec.pos
  rw [select_apply, cmpf_apply, mulf_apply, hostExpm1_apply, select_apply, cmpf_apply, broadcastInDim_scalar_apply,
    broadcastInDim_scalar_apply, constant_apply, constant_apply]
  generalize FloatOps.cmpf (F := Ideal) (φ := .f32) .ogt (o j) (Ideal.ofBits .f32 0x00000000#32) = c
  rcases BitVec.eq_zero_or_eq_one c with h | h
  · subst h
    rw [select_zero, select_zero, select_zero, Ideal.ofBits_one_f32, one_mul]
  · subst h
    rw [select_one, select_one]

/-! ## Against the specification

With `K m e' = (x·W)[b, m, e']` the projected rows of batch `b`, `q = K n` the query row and `a m = adj[b, n, m]`
the adjacency row, each stage of the reference at row `n` of batch `b` is the specification's. -/

theorem proj_spec (x : FVec Ideal S8x2048x128 .f32) (w : FVec Ideal S128x128 .f32) (b : Fin 8) (n : Fin 2048) (e : Fin 128) :
    RefRun.proj x w (ix3 b n e) = Cert.Spec.proj x w b n e := by
  rw [proj_apply]; rfl

theorem masked_spec (x : FVec Ideal S8x2048x128 .f32) (adj : FVec Ideal S8x2048x2048 .f32) (w : FVec Ideal S128x128 .f32)
    (b : Fin 8) (n m : Fin 2048) :
    RefRun.masked (RefRun.proj x w) adj (ix3 b n m)
      = Cert.Spec.logit (fun m e' => Cert.Spec.proj x w b m e') (fun e' => Cert.Spec.proj x w b n e')
          (fun m => adj (ix3 b n m)) m := by
  rw [masked_apply]
  simp only [proj_spec]
  rfl

theorem rowMax_spec (x : FVec Ideal S8x2048x128 .f32) (adj : FVec Ideal S8x2048x2048 .f32) (w : FVec Ideal S128x128 .f32)
    (b : Fin 8) (n : Fin 2048) :
    RefRun.rowMax (RefRun.masked (RefRun.proj x w) adj) (ix2 b n)
      = Cert.Spec.rowMax (fun m e' => Cert.Spec.proj x w b m e') (fun e' => Cert.Spec.proj x w b n e')
          (fun m => adj (ix3 b n m)) := by
  rw [rowMax_apply]
  simp only [masked_spec]
  rfl

theorem expd_spec (x : FVec Ideal S8x2048x128 .f32) (adj : FVec Ideal S8x2048x2048 .f32) (w : FVec Ideal S128x128 .f32)
    (b : Fin 8) (n m : Fin 2048) :
    RefRun.expd (RefRun.masked (RefRun.proj x w) adj) (ix3 b n m)
      = Cert.Spec.weight (fun m e' => Cert.Spec.proj x w b m e') (fun e' => Cert.Spec.proj x w b n e')
          (fun m => adj (ix3 b n m)) m := by
  rw [expd_apply, masked_spec, rowMax_spec]
  rfl

theorem soft_spec (x : FVec Ideal S8x2048x128 .f32) (adj : FVec Ideal S8x2048x2048 .f32) (w : FVec Ideal S128x128 .f32)
    (b : Fin 8) (n m : Fin 2048) :
    RefRun.soft (RefRun.masked (RefRun.proj x w) adj) (ix3 b n m)
      = Cert.Spec.attn (fun m e' => Cert.Spec.proj x w b m e') (fun e' => Cert.Spec.proj x w b n e')
          (fun m => adj (ix3 b n m)) m := by
  rw [soft_apply]
  simp only [expd_spec]
  rfl

/-- The reference's result at (b, n, e) is the layer's output there. -/
theorem result_apply (x : FVec Ideal S8x2048x128 .f32) (adj : FVec Ideal S8x2048x2048 .f32) (w : FVec Ideal S128x128 .f32)
    (b : Fin 8) (n : Fin 2048) (e : Fin 128) :
    RefRun.result x adj w (ix3 b n e) = Cert.Spec.Gat x w adj b n e := by
  unfold RefRun.result
  rw [elu_apply, mix_apply]
  simp only [soft_spec, proj_spec]
  rfl

/-- The reference's result is the layer's output, as arrays. -/
theorem result_eq (x : FVec Ideal S8x2048x128 .f32) (adj : FVec Ideal S8x2048x2048 .f32) (w : FVec Ideal S128x128 .f32) :
    RefRun.result x adj w = Cert.Spec.G x w adj := by
  funext j
  obtain ⟨b, n, e, rfl⟩ : ∃ (b : Fin 8) (n : Fin 2048) (e : Fin 128), j = ix3 b n e := ⟨j 0, j 1, j 2, eq_ix3 j⟩
  exact (result_apply x adj w b n e).trans (Cert.Spec.G_apply x w adj b n e).symm

/-! ## The run, against the specification -/

open Idealize.SL.Sem Idealize.ShloMosaic.TcCoe in
/-- At the ideal values every weakly fair execution of the reference terminates with the result buffer at the
    layer's output of the arguments' launch contents, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = Cert.Spec.G (m ((c.tc : Thread nD τ).loc main_arg0)) (m ((c.tc : Thread nD τ).loc main_arg2)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq _ _ _), (h c).2⟩) (RefRun.run m ρ)

end Cert.ReferenceIdeal.RefRead

end
-- ==== Proof.lean ====
/-
  Dense graph attention: a fused kernel against its plain reference, over the extended reals.

  Both programs compute, for each batch `b`, the projection `P = x[b] · W`, the logits `⟨P n, P m⟩ + adj[b, n, m]` masked by
  `adj[b, n, m] > 0` against one fixed negative word, the row-wise normalisation by exponentials of distances to the row maximum,
  the product of the normalised rows with `P`, and `elu`. The kernel does it tile by tile (512 query rows at a time), keeping `P`
  in a scratch across a batch's four tiles; the reference does it on whole arrays.

  Index by index both are ONE function of the three argument arrays (`Spec.G`): the kernel's matrix products into zero and the
  reference's contractions are the same sums over the same index sets; the kernel's halving of a product's operands' width is
  the identity on extended reals; the reference's extra maximum against `-∞` is the identity; and its
  `1 · (exp(select(o > 0, 0, o)) - 1)` in the branch `¬ o > 0` is `exp o - 1`. No law used needs the inputs finite, so the
  precondition is never opened.

  The kernel's result array: `Blocks.run` (the generated frame run, its blocks read back as values and joined). The
  reference's: `RefRead.run_spec` (its run, the outlined functions inlined, read one operation at a time). The idealization
  rewrote nothing, so `preserves` is `True`.
-/
import proofs.«127434_j21912923144629_2_alg».proof.Defs
import proofs.«127434_j21912923144629_2_alg».proof.Proof.Gen.Kernel
import proofs.«127434_j21912923144629_2_alg».proof.Proof.Gen.Kernel.Skeleton
import proofs.«127434_j21912923144629_2_alg».proof.Proof.Gen.Kernel.Launch
import proofs.«127434_j21912923144629_2_alg».proof.Proof.Gen.Kernel.Points
import proofs.«127434_j21912923144629_2_alg».proof.Proof.Gen.Kernel.Frame
import proofs.«127434_j21912923144629_2_alg».proof.Proof.Gen.KernelIdeal
import proofs.«127434_j21912923144629_2_alg».proof.Proof.Gen.KernelIdeal.Skeleton
import proofs.«127434_j21912923144629_2_alg».proof.Proof.Gen.KernelIdeal.Launch
import proofs.«127434_j21912923144629_2_alg».proof.Proof.Gen.KernelIdeal.Points
import proofs.«127434_j21912923144629_2_alg».proof.Proof.Gen.KernelIdeal.Frame
import proofs.«127434_j21912923144629_2_alg».proof.Proof.Gen.KernelIdeal.Value
import proofs.«127434_j21912923144629_2_alg».proof.Proof.Gen.ReferenceIdeal
import proofs.«127434_j21912923144629_2_alg».proof.Proof.Gen.Pre_finite_inputs
import proofs.«127434_j21912923144629_2_alg».proof.Proof.Blocks
import proofs.«127434_j21912923144629_2_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as launched: the generated frame. -/
theorem frame_k [Cert.Kernel.Facts] [Cert.Pre_finite_inputs.Facts] : Cert.frame_Kernel :=
  fun m ρ _ => Cert.Kernel.Gen.frame m ρ

/-- The same of the kernel read over the extended reals. -/
theorem frame_ki [Cert.KernelIdeal.Facts] [Cert.Pre_finite_inputs.Facts] : Cert.frame_KernelIdeal :=
  fun m ρ _ => Cert.KernelIdeal.Gen.frame m ρ

/-- The reference runs and leaves its arguments as launched: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.RefRun.run (F := Ideal) m ρ)

/-- From memories that agree on the arguments both programs end with the layer's output `Spec.G` of the same three arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.RefRead.run_spec m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
